-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S64x16 .f32) (main_arg8 : FVec F S16 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S2097152x32 .f32) (main_arg1 : FVec F S32x64 .f32) (main_arg2 : FVec F S64 .f32) (main_arg3 : FVec F S64x64 .f32) (main_arg4 : FVec F S64 .f32) (main_arg5 : FVec F S64x64 .f32) (main_arg6 : FVec F S64 .f32) (main_arg7 : FVec F S64x16 .f32) (main_arg8 : FVec F S16 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S2097152x32 : Shape := ⟨2, ![2097152, 32]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S262144x256 : Shape := ⟨2, ![262144, 256]⟩
abbrev S8x8 : Shape := ⟨2, ![8, 8]⟩
abbrev S_ : Shape := ⟨0, ![]⟩
abbrev S8x1x8x1 : Shape := ⟨4, ![8, 1, 8, 1]⟩
abbrev S1x32x1x64 : Shape := ⟨4, ![1, 32, 1, 64]⟩
abbrev S8x32x8x64 : Shape := ⟨4, ![8, 32, 8, 64]⟩
abbrev S256x512 : Shape := ⟨2, ![256, 512]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x64x1x16 : Shape := ⟨4, ![1, 64, 1, 16]⟩
abbrev S8x64x8x16 : Shape := ⟨4, ![8, 64, 8, 16]⟩
abbrev S512x128 : Shape := ⟨2, ![512, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S262144x128 : Shape := ⟨2, ![262144, 128]⟩
abbrev S2048x256 : Shape := ⟨2, ![2048, 256]⟩
abbrev S2048x128 : Shape := ⟨2, ![2048, 128]⟩
abbrev S2048x512 : Shape := ⟨2, ![2048, 512]⟩
abbrev S2097152x16 : Shape := ⟨2, ![2097152, 16]⟩

abbrev nBuf : Space → Nat
  | .hbm => 84
  | .vmem => 12
  | .smem => 0
  | _ => 0

abbrev bufTy : (tb : Table) → Fin (tcTables nBuf tb) → BufTy
  | .hbm, ⟨0, _⟩ => ⟨S2097152x32, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S262144x256, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x1x8x1, .f32⟩
  | .hbm, ⟨18, _⟩ => ⟨S1x32x1x64, .f32⟩
  | .hbm, ⟨19, _⟩ => ⟨S8x32x8x64, .f32⟩
  | .hbm, ⟨20, _⟩ => ⟨S8x32x8x64, .f32⟩
  | .hbm, ⟨21, _⟩ => ⟨S8x32x8x64, .f32⟩
  | .hbm, ⟨22, _⟩ => ⟨S256x512, .f32⟩
  | .hbm, ⟨23, _⟩ => ⟨S256x512, .bf16⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S8x1x8x1, .f32⟩
  | .hbm, ⟨32, _⟩ => ⟨S1x64x1x64, .f32⟩
  | .hbm, ⟨33, _⟩ => ⟨S8x64x8x64, .f32⟩
  | .hbm, ⟨34, _⟩ => ⟨S8x64x8x64, .f32⟩
  | .hbm, ⟨35, _⟩ => ⟨S8x64x8x64, .f32⟩
  | .hbm, ⟨36, _⟩ => ⟨S512x512, .f32⟩
  | .hbm, ⟨37, _⟩ => ⟨S512x512, .bf16⟩
  | .hbm, ⟨38, _⟩ => ⟨S8x8, .i32⟩
  | .hbm, ⟨39, _⟩ => ⟨S8x8, .i32⟩
  | .hbm, ⟨40, _⟩ => ⟨S_, .i32⟩
  | .hbm, ⟨41, _⟩ => ⟨S8x8, .i32⟩
  | .hbm, ⟨42, _⟩ => ⟨S8x8, .i32⟩
  | .hbm, ⟨43, _⟩ => ⟨S8x8, .i1⟩
  | .hbm, ⟨44, _⟩ => ⟨S8x8, .f32⟩
  | .hbm, ⟨45, _⟩ => ⟨S8x1x8x1, .f32⟩
  | .hbm, ⟨46, _⟩ => ⟨S1x64x1x64, .f32⟩
  | .hbm, ⟨47, _⟩ => ⟨S8x64x8x64, .f32⟩
  | .hbm, ⟨48, _⟩ => ⟨S8x64x8x64, .f32⟩
  | .hbm, ⟨49, _⟩ => ⟨S8x64x8x64, .f32⟩
  | .hbm, ⟨50, _⟩ => ⟨S512x512, .f32⟩
  | .hbm, ⟨51, _⟩ => ⟨S512x512, .bf16⟩
  | .hbm, ⟨52, _⟩ => ⟨S8x8, .i32⟩
  | .hbm, ⟨53, _⟩ => ⟨S8x8, .i32⟩
  | .hbm, ⟨54, _⟩ => ⟨S_, .i32⟩
  | .hbm, ⟨55, _⟩ => ⟨S8x8, .i32⟩
  | .hbm, ⟨56, _⟩ => ⟨S8x8, .i32⟩
  | .hbm, ⟨57, _⟩ => ⟨S8x8, .i1⟩
  | .hbm, ⟨58, _⟩ => ⟨S8x8, .f32⟩
  | .hbm, ⟨59, _⟩ => ⟨S8x1x8x1, .f32⟩
  | .hbm, ⟨60, _⟩ => ⟨S1x64x1x16, .f32⟩
  | .hbm, ⟨61, _⟩ => ⟨S8x64x8x16, .f32⟩
  | .hbm, ⟨62, _⟩ => ⟨S8x64x8x16, .f32⟩
  | .hbm, ⟨63, _⟩ => ⟨S8x64x8x16, .f32⟩
  | .hbm, ⟨64, _⟩ => ⟨S512x128, .f32⟩
  | .hbm, ⟨65, _⟩ => ⟨S512x128, .bf16⟩
  | .hbm, ⟨66, _⟩ => ⟨S1x64, .f32⟩
  | .hbm, ⟨67, _⟩ => ⟨S8x64, .f32⟩
  | .hbm, ⟨68, _⟩ => ⟨S512, .f32⟩
  | .hbm, ⟨69, _⟩ => ⟨S1x512, .f32⟩
  | .hbm, ⟨70, _⟩ => ⟨S1x64, .f32⟩
  | .hbm, ⟨71, _⟩ => ⟨S8x64, .f32⟩
  | .hbm, ⟨72, _⟩ => ⟨S512, .f32⟩
  | .hbm, ⟨73, _⟩ => ⟨S1x512, .f32⟩
  | .hbm, ⟨74, _⟩ => ⟨S1x64, .f32⟩
  | .hbm, ⟨75, _⟩ => ⟨S8x64, .f32⟩
  | .hbm, ⟨76, _⟩ => ⟨S512, .f32⟩
  | .hbm, ⟨77, _⟩ => ⟨S1x512, .f32⟩
  | .hbm, ⟨78, _⟩ => ⟨S1x16, .f32⟩
  | .hbm, ⟨79, _⟩ => ⟨S8x16, .f32⟩
  | .hbm, ⟨80, _⟩ => ⟨S128, .f32⟩
  | .hbm, ⟨81, _⟩ => ⟨S1x128, .f32⟩
  | .hbm, ⟨82, _⟩ => ⟨S262144x128, .f32⟩
  | .hbm, ⟨83, _⟩ => ⟨S2097152x16, .f32⟩
  | .local _ .vmem, ⟨0, _⟩ => ⟨S2048x256, .f32⟩
  | .local _ .vmem, ⟨1, _⟩ => ⟨S2048x256, .f32⟩
  | .local _ .vmem, ⟨2, _⟩ => ⟨S256x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x128, .bf16⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S2097152x32_S262144x256 : S2097152x32.ShapeCasts S262144x256
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S32x64_S1x32x1x64_1_3 : S32x64.BroadcastsInDim S1x32x1x64 (![1, 3] : Fin 2 → Fin S1x32x1x64.rank)
  bcast_S8x1x8x1_S8x32x8x64_0_1_2_3 : S8x1x8x1.BroadcastsInDim S8x32x8x64 (![0, 1, 2, 3] : Fin 4 → Fin S8x32x8x64.rank)
  bcast_S1x32x1x64_S8x32x8x64_0_1_2_3 : S1x32x1x64.BroadcastsInDim S8x32x8x64 (![0, 1, 2, 3] : Fin 4 → Fin S8x32x8x64.rank)
  shapeCasts_S8x32x8x64_S256x512 : S8x32x8x64.ShapeCasts S256x512
  bitsLt_bf16_f32 : FTy.bits .bf16 < FTy.bits .f32
  bcast_S64x64_S1x64x1x64_1_3 : S64x64.BroadcastsInDim S1x64x1x64 (![1, 3] : Fin 2 → Fin S1x64x1x64.rank)
  bcast_S8x1x8x1_S8x64x8x64_0_1_2_3 : S8x1x8x1.BroadcastsInDim S8x64x8x64 (![0, 1, 2, 3] : Fin 4 → Fin S8x64x8x64.rank)
  bcast_S1x64x1x64_S8x64x8x64_0_1_2_3 : S1x64x1x64.BroadcastsInDim S8x64x8x64 (![0, 1, 2, 3] : Fin 4 → Fin S8x64x8x64.rank)
  shapeCasts_S8x64x8x64_S512x512 : S8x64x8x64.ShapeCasts S512x512
  bcast_S64x16_S1x64x1x16_1_3 : S64x16.BroadcastsInDim S1x64x1x16 (![1, 3] : Fin 2 → Fin S1x64x1x16.rank)
  bcast_S8x1x8x1_S8x64x8x16_0_1_2_3 : S8x1x8x1.BroadcastsInDim S8x64x8x16 (![0, 1, 2, 3] : Fin 4 → Fin S8x64x8x16.rank)
  bcast_S1x64x1x16_S8x64x8x16_0_1_2_3 : S1x64x1x16.BroadcastsInDim S8x64x8x16 (![0, 1, 2, 3] : Fin 4 → Fin S8x64x8x16.rank)
  shapeCasts_S8x64x8x16_S512x128 : S8x64x8x16.ShapeCasts S512x128
  shapeCasts_S64_S1x64 : S64.ShapeCasts S1x64
  bcast_S1x64_S8x64_0_1 : S1x64.BroadcastsInDim S8x64 (![0, 1] : Fin 2 → Fin S8x64.rank)
  shapeCasts_S8x64_S512 : S8x64.ShapeCasts S512
  shapeCasts_S512_S1x512 : S512.ShapeCasts S1x512
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S262144x128_S2097152x16 : S262144x128.ShapeCasts S2097152x16
  dot_S2048x256_S256x512_S2048x512_1_0_0_1_n_n_wf : DotDims.WF S2048x256 S256x512 S2048x512 [1] [0] [0] [1] [] []
  dot_S2048x512_S512x512_S2048x512_1_0_0_1_n_n_wf : DotDims.WF S2048x512 S512x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .bf16 = 32 ∨ (Rect.block (s := S512x128) S512x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S262144x128.size a
  hwx0_9 : ∀ i : grid0.Coords, EltTy.bits .f32 = 32 ∨ (Rect.block (s := S262144x128) S2048x128.size (cc0_transform_9 i) (hinb0_9 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S2097152x64 : Shape := ⟨2, ![2097152, 64]⟩
abbrev S1x64 : Shape := ⟨2, ![1, 64]⟩
abbrev S_ : Shape := ⟨0, ![]⟩
abbrev S2097152x16 : Shape := ⟨2, ![2097152, 16]⟩
abbrev S1x16 : Shape := ⟨2, ![1, 16]⟩

abbrev nBuf : Space → Nat
  | .hbm => 34
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S2097152x64, .f32⟩
  | .hbm, ⟨10, _⟩ => ⟨S1x64, .f32⟩
  | .hbm, ⟨11, _⟩ => ⟨S2097152x64, .f32⟩
  | .hbm, ⟨12, _⟩ => ⟨S2097152x64, .f32⟩
  | .hbm, ⟨13, _⟩ => ⟨S_, .f32⟩
  | .hbm, ⟨14, _⟩ => ⟨S2097152x64, .f32⟩
  | .hbm, ⟨15, _⟩ => ⟨S2097152x64, .f32⟩
  | .hbm, ⟨16, _⟩ => ⟨S2097152x64, .f32⟩
  | .hbm, ⟨17, _⟩ => ⟨S1x64, .f32⟩
  | .hbm, ⟨18, _⟩ => ⟨S2097152x64, .f32⟩
  | .hbm, ⟨19, _⟩ => ⟨S2097152x64, .f32⟩
  | .hbm, ⟨20, _⟩ => ⟨S_, .f32⟩
  | .hbm, ⟨21, _⟩ => ⟨S2097152x64, .f32⟩
  | .hbm, ⟨22, _⟩ => ⟨S2097152x64, .f32⟩
  | .hbm, ⟨23, _⟩ => ⟨S2097152x64, .f32⟩
  | .hbm, ⟨24, _⟩ => ⟨S1x64, .f32⟩
  | .hbm, ⟨25, _⟩ => ⟨S2097152x64, .f32⟩
  | .hbm, ⟨26, _⟩ => ⟨S2097152x64, .f32⟩
  | .hbm, ⟨27, _⟩ => ⟨S_, .f32⟩
  | .hbm, ⟨28, _⟩ => ⟨S2097152x64, .f32⟩
  | .hbm, ⟨29, _⟩ => ⟨S2097152x64, .f32⟩
  | .hbm, ⟨30, _⟩ => ⟨S2097152x16, .f32⟩
  | .hbm, ⟨31, _⟩ => ⟨S1x16, .f32⟩
  | .hbm, ⟨32, _⟩ => ⟨S2097152x16, .f32⟩
  | .hbm, ⟨33, _⟩ => ⟨S2097152x16, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x16_S2097152x16_1_0_0_1_n_n_wf : DotDims.WF S2097152x64 S64x16 S2097152x16 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x16_S2097152x16_1_0_0_1_n_n : DotDims S2097152x64 S64x16 S2097152x16 where
  lhsContracting := [1]
  rhsContracting := [0]
  lhsNonContracting := [0]
  rhsNonContracting := [1]
  lhsBatch := []
  rhsBatch := []
  wf := dot_S2097152x64_S64x16_S2097152x16_1_0_0_1_n_n_wf

class Facts : Prop extends Facts₀ where

variable [Facts]
-- ==== Proof.Spec.lean ====
/-
  The specification: what both programs compute, as one function of the argument arrays, row by row.

  A dense layer sends a row h of length K to the row j ↦ (∑_k h_k · W[k, j]) + b[j]; a hidden layer clamps that at
  zero from below. The network is three hidden layers (32 → 64 → 64 → 64) and one plain dense layer (64 → 16). Row n
  of the result depends on row n of x only.
-/
import Idealize.ShloMosaic.PureOps.Ideal
import Idealize.ShloMosaic.Lib.ValueIdx

noncomputable section

namespace Cert.Mlp

open Idealize.ShloMosaic Idealize.ShloMosaic.ValueIdx

/-- One dense layer on one row: `j ↦ (∑_k h_k · W[k, j]) + b[j]`. -/
def dense {K J : ℕ} (W : (⟨2, ![K, J]⟩ : Shape).Idx → EReal) (b : (⟨1, ![J]⟩ : Shape).Idx → EReal)
    (h : Fin K → EReal) (j : Fin J) : EReal :=
  (∑ k : Fin K, h k * W (ix2 k j)) + b (ix1 j)

/-- A hidden layer: the dense layer clamped at zero from below. -/
def hidden {K J : ℕ} (W : (⟨2, ![K, J]⟩ : Shape).Idx → EReal) (b : (⟨1, ![J]⟩ : Shape).Idx → EReal)
    (h : Fin K → EReal) (j : Fin J) : EReal :=
  max (dense W b h j) 0

/-- The network on one row of 32 entries. -/
def mlp (Win : (⟨2, ![32, 64]⟩ : Shape).Idx → EReal) (bin : (⟨1, ![64]⟩ : Shape).Idx → EReal)
    (Wh0 : (⟨2, ![64, 64]⟩ : Shape).Idx → EReal) (bh0 : (⟨1, ![64]⟩ : Shape).Idx → EReal)
    (Wh1 : (⟨2, ![64, 64]⟩ : Shape).Idx → EReal) (bh1 : (⟨1, ![64]⟩ : Shape).Idx → EReal)
    (Wout : (⟨2, ![64, 16]⟩ : Shape).Idx → EReal) (bout : (⟨1, ![16]⟩ : Shape).Idx → EReal)
    (x : Fin 32 → EReal) : Fin 16 → EReal :=
  dense Wout bout (hidden Wh1 bh1 (hidden Wh0 bh0 (hidden Win bin x)))

/-- The whole result: row `n` is the network applied to row `n` of `x`. -/
def G (x : (⟨2, ![2097152, 32]⟩ : Shape).Idx → EReal)
    (Win : (⟨2, ![32, 64]⟩ : Shape).Idx → EReal) (bin : (⟨1, ![64]⟩ : Shape).Idx → EReal)
    (Wh0 : (⟨2, ![64, 64]⟩ : Shape).Idx → EReal) (bh0 : (⟨1, ![64]⟩ : Shape).Idx → EReal)
    (Wh1 : (⟨2, ![64, 64]⟩ : Shape).Idx → EReal) (bh1 : (⟨1, ![64]⟩ : Shape).Idx → EReal)
    (Wout : (⟨2, ![64, 16]⟩ : Shape).Idx → EReal) (bout : (⟨1, ![16]⟩ : Shape).Idx → EReal) :
    (⟨2, ![2097152, 16]⟩ : Shape).Idx → EReal :=
  fun i => mlp Win bin Wh0 bh0 Wh1 bh1 Wout bout (fun k => x (ix2 (i 0) k)) (i 1)

end Cert.Mlp

end
-- ==== Proof.RefValue.lean ====
/-
  The reference computes the specification.

  Its program is, four times over, a matrix product of the rows with a weight matrix, a bias row added to every row,
  and (three times) a maximum with zero. Read at an index (n, j), a product is the sum over k of the left operand at
  (n, k) times the weight at (k, j), and the broadcast bias is b[j]; so each stage at (n, j) is the corresponding layer
  of the specification applied to row n of the stage before.
-/
import proofs.«168032_j20899310862907_2_alg».proof.Proof.Gen.ReferenceIdeal.Read
import proofs.«168032_j20899310862907_2_alg».proof.Proof.Spec

noncomputable section

namespace Cert.ReferenceIdeal.RefValue

open Cert.ReferenceIdeal Cert.ReferenceIdeal.Read Idealize.ShloMosaic Idealize.ShloMosaic.ValueIdx Cert.Mlp

/-! ## The index functions of the generated read lemmas, as coordinates -/

theorem lidx0 (i : S2097152x64.Idx) (k : Fin 32) : lidx_main_v0 i k = ix2 (i 0) k :=
  funext fun a => match a with | ⟨0, _⟩ => rfl | ⟨1, _⟩ => rfl
theorem ridx0 (i : S2097152x64.Idx) (k : Fin 32) : ridx_main_v0 i k = ix2 k (i 1) :=
  funext fun a => match a with | ⟨0, _⟩ => rfl | ⟨1, _⟩ => rfl
theorem lidx5 (i : S2097152x64.Idx) (k : Fin 64) : lidx_main_v5 i k = ix2 (i 0) k :=
  funext fun a => match a with | ⟨0, _⟩ => rfl | ⟨1, _⟩ => rfl
theorem ridx5 (i : S2097152x64.Idx) (k : Fin 64) : ridx_main_v5 i k = ix2 k (i 1) :=
  funext fun a => match a with | ⟨0, _⟩ => rfl | ⟨1, _⟩ => rfl
theorem lidx10 (i : S2097152x64.Idx) (k : Fin 64) : lidx_main_v10 i k = ix2 (i 0) k :=
  funext fun a => match a with | ⟨0, _⟩ => rfl | ⟨1, _⟩ => rfl
theorem ridx10 (i : S2097152x64.Idx) (k : Fin 64) : ridx_main_v10 i k = ix2 k (i 1) :=
  funext fun a => match a with | ⟨0, _⟩ => rfl | ⟨1, _⟩ => rfl
theorem lidx15 (i : S2097152x16.Idx) (k : Fin 64) : lidx_main_v15 i k = ix2 (i 0) k :=
  funext fun a => match a with | ⟨0, _⟩ => rfl | ⟨1, _⟩ => rfl
theorem ridx15 (i : S2097152x16.Idx) (k : Fin 64) : ridx_main_v15 i k = ix2 k (i 1) :=
  funext fun a => match a with | ⟨0, _⟩ => rfl | ⟨1, _⟩ => rfl

/-- The bias of a 64-wide layer, broadcast to every row, read at (n, j) is b[j]. -/
theorem bias64 (i : S2097152x64.Idx) : idx_main_v1 (idx_main_v2 i) = ix1 (i 1) :=
  funext fun a => match a with | ⟨0, _⟩ => rfl
theorem bias64' (i : S2097152x64.Idx) : idx_main_v6 (idx_main_v7 i) = ix1 (i 1) :=
  funext fun a => match a with | ⟨0, _⟩ => rfl
theorem bias64'' (i : S2097152x64.Idx) : idx_main_v11 (idx_main_v12 i) = ix1 (i 1) :=
  funext fun a => match a with | ⟨0, _⟩ => rfl
theorem bias16 (i : S2097152x16.Idx) : idx_main_v16 (idx_main_v17 i) = ix1 (i 1) :=
  funext fun a => match a with | ⟨0, _⟩ => rfl

variable (x0 : (⟨S2097152x32, .f32⟩ : BufTy).Contents (Elt Ideal)) (x1 : (⟨S32x64, .f32⟩ : BufTy).Contents (Elt Ideal))
  (x2 : (⟨S64, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x16, .f32⟩ : BufTy).Contents (Elt Ideal))
  (x8 : (⟨S16, .f32⟩ : BufTy).Contents (Elt Ideal))

/-! ## The stages, layer by layer -/

/-- After the first maximum: the first hidden layer of row n of x. -/
theorem stage1 (i : S2097152x64.Idx) :
    val_main_v4 (F := Ideal) x0 x1 x2 i = hidden x1 x2 (fun k => x0 (ix2 (i 0) k)) (i 1) := by
  rw [val_main_v4_apply, val_main_v3_apply, val_main_v0_apply, val_main_v2_apply, val_main_v1_apply,
    val_main_call0_v0_apply, val_main_call0_cst_apply]
  simp only [lidx0, ridx0, bias64, Ideal.maximumf_def, Ideal.addf_def, Ideal.ofBits_def, Ideal.ofBits_zero_f32]
  rfl

/-- After the second maximum: the second hidden layer of the first. -/
theorem stage2 (i : S2097152x64.Idx) :
    val_main_v9 (F := Ideal) x0 x1 x2 x3 x4 i
      = hidden x3 x4 (fun k => val_main_v4 (F := Ideal) x0 x1 x2 (ix2 (i 0) k)) (i 1) := by
  rw [val_main_v9_apply, val_main_v8_apply, val_main_v5_apply, val_main_v7_apply, val_main_v6_apply,
    val_main_call1_v0_apply, val_main_call1_cst_apply]
  simp only [lidx5, ridx5, bias64', Ideal.maximumf_def, Ideal.addf_def, Ideal.ofBits_def, Ideal.ofBits_zero_f32]
  rfl

/-- After the third maximum: the third hidden layer of the second. -/
theorem stage3 (i : S2097152x64.Idx) :
    val_main_v14 (F := Ideal) x0 x1 x2 x3 x4 x5 x6 i
      = hidden x5 x6 (fun k => val_main_v9 (F := Ideal) x0 x1 x2 x3 x4 (ix2 (i 0) k)) (i 1) := by
  rw [val_main_v14_apply, val_main_v13_apply, val_main_v10_apply, val_main_v12_apply, val_main_v11_apply,
    val_main_call2_v0_apply, val_main_call2_cst_apply]
  simp only [lidx10, ridx10, bias64'', Ideal.maximumf_def, Ideal.addf_def, Ideal.ofBits_def, Ideal.ofBits_zero_f32]
  rfl

/-- The result: the last dense layer of the third hidden layer. -/
theorem stage4 (i : S2097152x16.Idx) :
    val_main_v18 (F := Ideal) x0 x1 x2 x3 x4 x5 x6 x7 x8 i
      = dense x7 x8 (fun k => val_main_v14 (F := Ideal) x0 x1 x2 x3 x4 x5 x6 (ix2 (i 0) k)) (i 1) := by
  rw [val_main_v18_apply, val_main_v15_apply, val_main_v17_apply, val_main_v16_apply]
  simp only [lidx15, ridx15, bias16, Ideal.addf_def]
  rfl

/-- The reference's result is the specification of its arguments. -/
theorem result_eq :
    val_main_v18 (F := Ideal) x0 x1 x2 x3 x4 x5 x6 x7 x8 = G x0 x1 x2 x3 x4 x5 x6 x7 x8 := by
  funext i
  rw [stage4]
  unfold G mlp
  refine congrArg (fun h => dense x7 x8 h (i 1)) (funext fun k => ?_)
  rw [stage3]
  refine congrArg (fun h => hidden x5 x6 h k) (funext fun k' => ?_)
  rw [stage2]
  refine congrArg (fun h => hidden x3 x4 h k') (funext fun k'' => ?_)
  rw [stage1]

end Cert.ReferenceIdeal.RefValue

end
-- ==== Proof.Packing.lean ====
/-
  How the arguments are packed before the kernel runs, and what each packed array holds at an index.

  Eight consecutive rows of x are laid side by side in one row of 256 (a reshape: packed row r holds rows 8r … 8r+7,
  row 8r + a at columns 32a … 32a+31). Each weight matrix becomes block-diagonal with eight copies of itself, built as
  the product of an 8×8 identity (1 where the row number equals the column number, from two counting arrays compared)
  with the matrix, over four axes (a, k, a', j), then laid out as (8·K)×(8·J). Each bias is repeated eight times along
  one row. The result is unpacked by the inverse reshape.
-/
import proofs.«168032_j20899310862907_2_alg».proof.Proof.Gen.KernelIdeal
import Idealize.ShloMosaic.Lib.Pipeline.Value
import Idealize.ShloMosaic.Lib.ValueIdx

noncomputable section

namespace Cert.KernelIdeal.Packing

open Cert.KernelIdeal Cert.KernelIdeal.Facts₀ Cert.KernelIdeal.Facts Idealize.ShloMosaic Idealize.ShloMosaic.ValueIdx

variable {F : FTy → Type} [FloatOps F]

/-! ## The packed operands, as terms of the arguments -/

/-- The 8×8 identity matrix as it is built: 1 where the row number equals the column number, else 0. -/
def eye : FVec F S8x8 .f32 :=
  uitofp .f32 (cmpi .eq (addi (iotaInDim S8x8 32 0) (broadcastInDim S8x8 ![] bcast_S_S8x8 (constantI S_ 32 0#32))) (iotaInDim S8x8 32 1))

/-- The 256×512 block-diagonal matrix of eight copies of a 32×64 matrix: the 8×32×8×64 array
    `eye[a, a'] · W[k, j]` laid out row-major as (8·32)×(8·64). -/
def blockDiag32x64 (W : FVec F S32x64 .f32) : FVec F S256x512 .bf16 :=
  truncf .bf16 (shapeCast S256x512
    (mulf (broadcastInDim S8x32x8x64 ![0, 1, 2, 3] bcast_S8x1x8x1_S8x32x8x64_0_1_2_3 (broadcastInDim S8x1x8x1 ![0, 2] bcast_S8x8_S8x1x8x1_0_2 (eye (F := F))))
      (broadcastInDim S8x32x8x64 ![0, 1, 2, 3] bcast_S1x32x1x64_S8x32x8x64_0_1_2_3 (broadcastInDim S1x32x1x64 ![1, 3] bcast_S32x64_S1x32x1x64_1_3 W)))
    shapeCasts_S8x32x8x64_S256x512) bitsLt_bf16_f32

/-- The 512×512 block-diagonal matrix of eight copies of a 64×64 matrix: the 8×64×8×64 array
    `eye[a, a'] · W[k, j]` laid out row-major as (8·64)×(8·64). -/
def blockDiag64x64 (W : FVec F S64x64 .f32) : FVec F S512x512 .bf16 :=
  truncf .bf16 (shapeCast S512x512
    (mulf (broadcastInDim S8x64x8x64 ![0, 1, 2, 3] bcast_S8x1x8x1_S8x64x8x64_0_1_2_3 (broadcastInDim S8x1x8x1 ![0, 2] bcast_S8x8_S8x1x8x1_0_2 (eye (F := F))))
      (broadcastInDim S8x64x8x64 ![0, 1, 2, 3] bcast_S1x64x1x64_S8x64x8x64_0_1_2_3 (broadcastInDim S1x64x1x64 ![1, 3] bcast_S64x64_S1x64x1x64_1_3 W)))
    shapeCasts_S8x64x8x64_S512x512) bitsLt_bf16_f32

/-- The 512×128 block-diagonal matrix of eight copies of a 64×16 matrix: the 8×64×8×16 array
    `eye[a, a'] · W[k, j]` laid out row-major as (8·64)×(8·16). -/
def blockDiag64x16 (W : FVec F S64x16 .f32) : FVec F S512x128 .bf16 :=
  truncf .bf16 (shapeCast S512x128
    (mulf (broadcastInDim S8x64x8x16 ![0, 1, 2, 3] bcast_S8x1x8x1_S8x64x8x16_0_1_2_3 (broadcastInDim S8x1x8x1 ![0, 2] bcast_S8x8_S8x1x8x1_0_2 (eye (F := F))))
      (broadcastInDim S8x64x8x16 ![0, 1, 2, 3] bcast_S1x64x1x16_S8x64x8x16_0_1_2_3 (broadcastInDim S1x64x1x16 ![1, 3] bcast_S64x16_S1x64x1x16_1_3 W)))
    shapeCasts_S8x64x8x16_S512x128) bitsLt_bf16_f32

/-- Eight consecutive rows of 32 side by side in one row of 256. -/
def packRows {α : Type} (x : S2097152x32.Idx → α) : S262144x256.Idx → α :=
  shapeCast S262144x256 x shapeCasts_S2097152x32_S262144x256

/-- One packed row of 128 split back into eight rows of 16. -/
def unpackRows {α : Type} (y : S262144x128.Idx → α) : S2097152x16.Idx → α :=
  shapeCast S2097152x16 y shapeCasts_S262144x128_S2097152x16

/-! ## The packed operands read at an index -/

/-- The identity at (a, a'): 1 on the diagonal, 0 off it. -/
theorem eye_apply (a a' : Fin 8) : eye (F := Ideal) (ix2 a a') = if a.val = a'.val then (1 : EReal) else 0 := by
  have h : ∀ a a' : Fin 8, (IntOp.cmpi .eq (IntOp.addi (BitVec.ofNat 32 a.val) 0#32) (BitVec.ofNat 32 a'.val)).toNat
      = if a.val = a'.val then 1 else 0 := by decide
  show (((IntOp.cmpi .eq (IntOp.addi (BitVec.ofNat 32 a.val) 0#32) (BitVec.ofNat 32 a'.val)).toNat : ℝ) : EReal) = _
  rw [h]
  split <;> simp

/-- Entry (r, c) of the block-diagonal matrix: the block's entry (r % 32, c % 64) where row group r / 32 and
    column group c / 64 coincide, zero elsewhere (as a product with the indicator). -/
theorem blockDiag32x64_apply (W : FVec Ideal S32x64 .f32) (r : Fin 256) (c : Fin 512) :
    blockDiag32x64 (F := Ideal) W (ix2 r c)
      = (if r.val / 32 = c.val / 64 then (1 : EReal) else 0)
          * W (ix2 (⟨r.val % 32, Nat.mod_lt _ (by decide)⟩ : Fin 32) (⟨c.val % 64, Nat.mod_lt _ (by decide)⟩ : Fin 64)) := by
  have hr := r.isLt
  have hc := c.isLt
  let a : Fin 8 := ⟨r.val / 32, by omega⟩
  let k : Fin 32 := ⟨r.val % 32, Nat.mod_lt _ (by decide)⟩
  let a' : Fin 8 := ⟨c.val / 64, by omega⟩
  let j : Fin 64 := ⟨c.val % 64, Nat.mod_lt _ (by decide)⟩
  unfold blockDiag32x64
  rw [truncf_apply, shapeCast_apply _ shapeCasts_S8x32x8x64_S256x512 (ix2 r c) (ix4 a k a' j) (by
      rw [Shape.rowMajor_val_four, Shape.rowMajor_val_two]
      show ((r.val / 32 * 32 + r.val % 32) * 8 + c.val / 64) * 64 + c.val % 64 = r.val * 512 + c.val
      omega),
    mulf_apply,
    broadcastInDim_apply _ bcast_S8x1x8x1_S8x32x8x64_0_1_2_3 _ (ix4 a k a' j) (ix4 a (0 : Fin 1) a' (0 : Fin 1)) (fun ax => match ax with
      | ⟨0, _⟩ => by show a.val = if (8 : Nat) = 1 then 0 else a.val; rw [if_neg (by decide)]
      | ⟨1, _⟩ => by show 0 = if (1 : Nat) = 1 then 0 else k.val; rw [if_pos rfl]
      | ⟨2, _⟩ => by show a'.val = if (8 : Nat) = 1 then 0 else a'.val; rw [if_neg (by decide)]
      | ⟨3, _⟩ => by show 0 = if (1 : Nat) = 1 then 0 else j.val; rw [if_pos rfl]),
    broadcastInDim_apply _ bcast_S8x8_S8x1x8x1_0_2 _ (ix4 a (0 : Fin 1) a' (0 : Fin 1)) (ix2 a a') (fun ax => match ax with
      | ⟨0, _⟩ => by show a.val = if (8 : Nat) = 1 then 0 else a.val; rw [if_neg (by decide)]
      | ⟨1, _⟩ => by show a'.val = if (8 : Nat) = 1 then 0 else a'.val; rw [if_neg (by decide)]),
    broadcastInDim_apply _ bcast_S1x32x1x64_S8x32x8x64_0_1_2_3 _ (ix4 a k a' j) (ix4 (0 : Fin 1) k (0 : Fin 1) j) (fun ax => match ax with
      | ⟨0, _⟩ => by show 0 = if (1 : Nat) = 1 then 0 else a.val; rw [if_pos rfl]
      | ⟨1, _⟩ => by show k.val = if (32 : Nat) = 1 then 0 else k.val; rw [if_neg (by decide)]
      | ⟨2, _⟩ => by show 0 = if (1 : Nat) = 1 then 0 else a'.val; rw [if_pos rfl]
      | ⟨3, _⟩ => by show j.val = if (64 : Nat) = 1 then 0 else j.val; rw [if_neg (by decide)]),
    broadcastInDim_apply _ bcast_S32x64_S1x32x1x64_1_3 _ (ix4 (0 : Fin 1) k (0 : Fin 1) j) (ix2 k j) (fun ax => match ax with
      | ⟨0, _⟩ => by show k.val = if (32 : Nat) = 1 then 0 else k.val; rw [if_neg (by decide)]
      | ⟨1, _⟩ => by show j.val = if (64 : Nat) = 1 then 0 else j.val; rw [if_neg (by decide)]),
    eye_apply]

/-- Entry (r, c) of the block-diagonal matrix: the block's entry (r % 64, c % 64) where row group r / 64 and
    column group c / 64 coincide, zero elsewhere (as a product with the indicator). -/
theorem blockDiag64x64_apply (W : FVec Ideal S64x64 .f32) (r : Fin 512) (c : Fin 512) :
    blockDiag64x64 (F := Ideal) W (ix2 r c)
      = (if r.val / 64 = c.val / 64 then (1 : EReal) else 0)
          * W (ix2 (⟨r.val % 64, Nat.mod_lt _ (by decide)⟩ : Fin 64) (⟨c.val % 64, Nat.mod_lt _ (by decide)⟩ : Fin 64)) := by
  have hr := r.isLt
  have hc := c.isLt
  let a : Fin 8 := ⟨r.val / 64, by omega⟩
  let k : Fin 64 := ⟨r.val % 64, Nat.mod_lt _ (by decide)⟩
  let a' : Fin 8 := ⟨c.val / 64, by omega⟩
  let j : Fin 64 := ⟨c.val % 64, Nat.mod_lt _ (by decide)⟩
  unfold blockDiag64x64
  rw [truncf_apply, shapeCast_apply _ shapeCasts_S8x64x8x64_S512x512 (ix2 r c) (ix4 a k a' j) (by
      rw [Shape.rowMajor_val_four, Shape.rowMajor_val_two]
      show ((r.val / 64 * 64 + r.val % 64) * 8 + c.val / 64) * 64 + c.val % 64 = r.val * 512 + c.val
      omega),
    mulf_apply,
    broadcastInDim_apply _ bcast_S8x1x8x1_S8x64x8x64_0_1_2_3 _ (ix4 a k a' j) (ix4 a (0 : Fin 1) a' (0 : Fin 1)) (fun ax => match ax with
      | ⟨0, _⟩ => by show a.val = if (8 : Nat) = 1 then 0 else a.val; rw [if_neg (by decide)]
      | ⟨1, _⟩ => by show 0 = if (1 : Nat) = 1 then 0 else k.val; rw [if_pos rfl]
      | ⟨2, _⟩ => by show a'.val = if (8 : Nat) = 1 then 0 else a'.val; rw [if_neg (by decide)]
      | ⟨3, _⟩ => by show 0 = if (1 : Nat) = 1 then 0 else j.val; rw [if_pos rfl]),
    broadcastInDim_apply _ bcast_S8x8_S8x1x8x1_0_2 _ (ix4 a (0 : Fin 1) a' (0 : Fin 1)) (ix2 a a') (fun ax => match ax with
      | ⟨0, _⟩ => by show a.val = if (8 : Nat) = 1 then 0 else a.val; rw [if_neg (by decide)]
      | ⟨1, _⟩ => by show a'.val = if (8 : Nat) = 1 then 0 else a'.val; rw [if_neg (by decide)]),
    broadcastInDim_apply _ bcast_S1x64x1x64_S8x64x8x64_0_1_2_3 _ (ix4 a k a' j) (ix4 (0 : Fin 1) k (0 : Fin 1) j) (fun ax => match ax with
      | ⟨0, _⟩ => by show 0 = if (1 : Nat) = 1 then 0 else a.val; rw [if_pos rfl]
      | ⟨1, _⟩ => by show k.val = if (64 : Nat) = 1 then 0 else k.val; rw [if_neg (by decide)]
      | ⟨2, _⟩ => by show 0 = if (1 : Nat) = 1 then 0 else a'.val; rw [if_pos rfl]
      | ⟨3, _⟩ => by show j.val = if (64 : Nat) = 1 then 0 else j.val; rw [if_neg (by decide)]),
    broadcastInDim_apply _ bcast_S64x64_S1x64x1x64_1_3 _ (ix4 (0 : Fin 1) k (0 : Fin 1) j) (ix2 k j) (fun ax => match ax with
      | ⟨0, _⟩ => by show k.val = if (64 : Nat) = 1 then 0 else k.val; rw [if_neg (by decide)]
      | ⟨1, _⟩ => by show j.val = if (64 : Nat) = 1 then 0 else j.val; rw [if_neg (by decide)]),
    eye_apply]

/-- Entry (r, c) of the block-diagonal matrix: the block's entry (r % 64, c % 16) where row group r / 64 and
    column group c / 16 coincide, zero elsewhere (as a product with the indicator). -/
theorem blockDiag64x16_apply (W : FVec Ideal S64x16 .f32) (r : Fin 512) (c : Fin 128) :
    blockDiag64x16 (F := Ideal) W (ix2 r c)
      = (if r.val / 64 = c.val / 16 then (1 : EReal) else 0)
          * W (ix2 (⟨r.val % 64, Nat.mod_lt _ (by decide)⟩ : Fin 64) (⟨c.val % 16, Nat.mod_lt _ (by decide)⟩ : Fin 16)) := by
  have hr := r.isLt
  have hc := c.isLt
  let a : Fin 8 := ⟨r.val / 64, by omega⟩
  let k : Fin 64 := ⟨r.val % 64, Nat.mod_lt _ (by decide)⟩
  let a' : Fin 8 := ⟨c.val / 16, by omega⟩
  let j : Fin 16 := ⟨c.val % 16, Nat.mod_lt _ (by decide)⟩
  unfold blockDiag64x16
  rw [truncf_apply, shapeCast_apply _ shapeCasts_S8x64x8x16_S512x128 (ix2 r c) (ix4 a k a' j) (by
      rw [Shape.rowMajor_val_four, Shape.rowMajor_val_two]
      show ((r.val / 64 * 64 + r.val % 64) * 8 + c.val / 16) * 16 + c.val % 16 = r.val * 128 + c.val
      omega),
    mulf_apply,
    broadcastInDim_apply _ bcast_S8x1x8x1_S8x64x8x16_0_1_2_3 _ (ix4 a k a' j) (ix4 a (0 : Fin 1) a' (0 : Fin 1)) (fun ax => match ax with
      | ⟨0, _⟩ => by show a.val = if (8 : Nat) = 1 then 0 else a.val; rw [if_neg (by decide)]
      | ⟨1, _⟩ => by show 0 = if (1 : Nat) = 1 then 0 else k.val; rw [if_pos rfl]
      | ⟨2, _⟩ => by show a'.val = if (8 : Nat) = 1 then 0 else a'.val; rw [if_neg (by decide)]
      | ⟨3, _⟩ => by show 0 = if (1 : Nat) = 1 then 0 else j.val; rw [if_pos rfl]),
    broadcastInDim_apply _ bcast_S8x8_S8x1x8x1_0_2 _ (ix4 a (0 : Fin 1) a' (0 : Fin 1)) (ix2 a a') (fun ax => match ax with
      | ⟨0, _⟩ => by show a.val = if (8 : Nat) = 1 then 0 else a.val; rw [if_neg (by decide)]
      | ⟨1, _⟩ => by show a'.val = if (8 : Nat) = 1 then 0 else a'.val; rw [if_neg (by decide)]),
    broadcastInDim_apply _ bcast_S1x64x1x16_S8x64x8x16_0_1_2_3 _ (ix4 a k a' j) (ix4 (0 : Fin 1) k (0 : Fin 1) j) (fun ax => match ax with
      | ⟨0, _⟩ => by show 0 = if (1 : Nat) = 1 then 0 else a.val; rw [if_pos rfl]
      | ⟨1, _⟩ => by show k.val = if (64 : Nat) = 1 then 0 else k.val; rw [if_neg (by decide)]
      | ⟨2, _⟩ => by show 0 = if (1 : Nat) = 1 then 0 else a'.val; rw [if_pos rfl]
      | ⟨3, _⟩ => by show j.val = if (16 : Nat) = 1 then 0 else j.val; rw [if_neg (by decide)]),
    broadcastInDim_apply _ bcast_S64x16_S1x64x1x16_1_3 _ (ix4 (0 : Fin 1) k (0 : Fin 1) j) (ix2 k j) (fun ax => match ax with
      | ⟨0, _⟩ => by show k.val = if (64 : Nat) = 1 then 0 else k.val; rw [if_neg (by decide)]
      | ⟨1, _⟩ => by show j.val = if (16 : Nat) = 1 then 0 else j.val; rw [if_neg (by decide)]),
    eye_apply]

/-- A bias row of length 64 repeated eight times along one row of length 512. -/
def tile64 {α : Type} (b : S64.Idx → α) : S1x512.Idx → α :=
  shapeCast S1x512 (shapeCast S512 (broadcastInDim S8x64 ![0, 1] bcast_S1x64_S8x64_0_1 (shapeCast S1x64 b shapeCasts_S64_S1x64)) shapeCasts_S8x64_S512) shapeCasts_S512_S1x512

/-- Entry c of the repeated bias row is entry c % 64 of the bias. -/
theorem tile64_apply {α : Type} (b : S64.Idx → α) (u : Fin 1) (c : Fin 512) :
    tile64 b (ix2 u c) = b (ix1 (⟨c.val % 64, Nat.mod_lt _ (by decide)⟩ : Fin 64)) := by
  have hc := c.isLt
  have hu := u.isLt
  let a : Fin 8 := ⟨c.val / 64, by omega⟩
  let j : Fin 64 := ⟨c.val % 64, Nat.mod_lt _ (by decide)⟩
  unfold tile64
  rw [shapeCast_apply _ shapeCasts_S512_S1x512 (ix2 u c) (ix1 c) (by
      rw [Shape.rowMajor_val_one, Shape.rowMajor_val_two]
      show c.val = u.val * 512 + c.val
      omega),
    shapeCast_apply _ shapeCasts_S8x64_S512 (ix1 c) (ix2 a j) (by
      rw [Shape.rowMajor_val_two, Shape.rowMajor_val_one]
      show c.val / 64 * 64 + c.val % 64 = c.val
      omega),
    broadcastInDim_apply _ bcast_S1x64_S8x64_0_1 _ (ix2 a j) (ix2 (0 : Fin 1) j) (fun ax => match ax with
      | ⟨0, _⟩ => by show 0 = if (1 : Nat) = 1 then 0 else a.val; rw [if_pos rfl]
      | ⟨1, _⟩ => by show j.val = if (64 : Nat) = 1 then 0 else j.val; rw [if_neg (by decide)]),
    shapeCast_apply _ shapeCasts_S64_S1x64 (ix2 (0 : Fin 1) j) (ix1 j) (by
      rw [Shape.rowMajor_val_one, Shape.rowMajor_val_two]
      show j.val = 0 * 64 + j.val
      omega)]

/-- A bias row of length 16 repeated eight times along one row of length 128. -/
def tile16 {α : Type} (b : S16.Idx → α) : S1x128.Idx → α :=
  shapeCast S1x128 (shapeCast S128 (broadcastInDim S8x16 ![0, 1] bcast_S1x16_S8x16_0_1 (shapeCast S1x16 b shapeCasts_S16_S1x16)) shapeCasts_S8x16_S128) shapeCasts_S128_S1x128

/-- Entry c of the repeated bias row is entry c % 16 of the bias. -/
theorem tile16_apply {α : Type} (b : S16.Idx → α) (u : Fin 1) (c : Fin 128) :
    tile16 b (ix2 u c) = b (ix1 (⟨c.val % 16, Nat.mod_lt _ (by decide)⟩ : Fin 16)) := by
  have hc := c.isLt
  have hu := u.isLt
  let a : Fin 8 := ⟨c.val / 16, by omega⟩
  let j : Fin 16 := ⟨c.val % 16, Nat.mod_lt _ (by decide)⟩
  unfold tile16
  rw [shapeCast_apply _ shapeCasts_S128_S1x128 (ix2 u c) (ix1 c) (by
      rw [Shape.rowMajor_val_one, Shape.rowMajor_val_two]
      show c.val = u.val * 128 + c.val
      omega),
    shapeCast_apply _ shapeCasts_S8x16_S128 (ix1 c) (ix2 a j) (by
      rw [Shape.rowMajor_val_two, Shape.rowMajor_val_one]
      show c.val / 16 * 16 + c.val % 16 = c.val
      omega),
    broadcastInDim_apply _ bcast_S1x16_S8x16_0_1 _ (ix2 a j) (ix2 (0 : Fin 1) j) (fun ax => match ax with
      | ⟨0, _⟩ => by show 0 = if (1 : Nat) = 1 then 0 else a.val; rw [if_pos rfl]
      | ⟨1, _⟩ => by show j.val = if (16 : Nat) = 1 then 0 else j.val; rw [if_neg (by decide)]),
    shapeCast_apply _ shapeCasts_S16_S1x16 (ix2 (0 : Fin 1) j) (ix1 j) (by
      rw [Shape.rowMajor_val_one, Shape.rowMajor_val_two]
      show j.val = 0 * 16 + j.val
      omega)]

/-- Packed row r at column c is row 8r + c / 32 of x at column c % 32. -/
theorem packRows_apply {α : Type} (x : S2097152x32.Idx → α) (r : Fin 262144) (c : Fin 256) :
    packRows x (ix2 r c)
      = x (ix2 (⟨8 * r.val + c.val / 32, by have := r.isLt; have := c.isLt; omega⟩ : Fin 2097152)
          (⟨c.val % 32, Nat.mod_lt _ (by decide)⟩ : Fin 32)) := by
  have hr := r.isLt
  have hc := c.isLt
  unfold packRows
  exact shapeCast_apply _ shapeCasts_S2097152x32_S262144x256 (ix2 r c) _ (by
      rw [Shape.rowMajor_val_two, Shape.rowMajor_val_two]
      show (8 * r.val + c.val / 32) * 32 + c.val % 32 = r.val * 256 + c.val
      omega)

/-- Row n of the unpacked result at column j is packed row n / 8 at column 16 (n % 8) + j. -/
theorem unpackRows_apply {α : Type} (y : S262144x128.Idx → α) (n : Fin 2097152) (j : Fin 16) :
    unpackRows y (ix2 n j)
      = y (ix2 (⟨n.val / 8, by have := n.isLt; omega⟩ : Fin 262144)
          (⟨16 * (n.val % 8) + j.val, by have := j.isLt; omega⟩ : Fin 128)) := by
  have hn := n.isLt
  have hj := j.isLt
  unfold unpackRows
  exact shapeCast_apply _ shapeCasts_S262144x128_S2097152x16 (ix2 n j) _ (by
      rw [Shape.rowMajor_val_two, Shape.rowMajor_val_two]
      show n.val / 8 * 128 + (16 * (n.val % 8) + j.val) = n.val * 16 + j.val
      omega)

end Cert.KernelIdeal.Packing

end
-- ==== Proof.Entry.lean ====
/-
  What the kernel's region finds in each operand's array: the packed forms of the arguments.

  Before the region the program only packs: x by a reshape, each weight matrix into its block-diagonal form, each bias
  into its eightfold repetition. Reading the program's operations in order gives each operand array as that packed
  term of the argument it comes from.
-/
import proofs.«168032_j20899310862907_2_alg».proof.Proof.Gen.KernelIdeal.Frame
import proofs.«168032_j20899310862907_2_alg».proof.Proof.Packing
import Idealize.ShloMosaic.Lib.StableHlo.Run

noncomputable section

namespace Cert.KernelIdeal.Entry

open Cert.KernelIdeal Cert.KernelIdeal.Gen Cert.KernelIdeal.Packing Idealize.ShloMosaic Idealize.ShloMosaic.TcCoe Idealize.SL.Sem Idealize.ShloMosaic.StableHlo

variable {F : FTy → Type} [FloatOps F]
variable (m : (ℓ : Loc nD τ sig) → Buf (Elt F) ℓ)

/-- Operand 0: x with eight rows side by side. -/
theorem V_main_v0 (c : Dev nD) : (V m c main_v0 : S262144x256.Idx → Elt F .f32) = packRows (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- Operand 1: the first weight matrix, block-diagonal. -/
theorem V_main_v8 (c : Dev nD) : (V m c main_v8 : S256x512.Idx → Elt F .bf16) = blockDiag32x64 (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- Operand 2: the first bias, repeated. -/
theorem V_main_v36 (c : Dev nD) : (V m c main_v36 : S1x512.Idx → Elt F .f32) = tile64 (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- Operand 3: the second weight matrix, block-diagonal. -/
theorem V_main_v16 (c : Dev nD) : (V m c main_v16 : S512x512.Idx → Elt F .bf16) = blockDiag64x64 (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- Operand 4: the second bias, repeated. -/
theorem V_main_v40 (c : Dev nD) : (V m c main_v40 : S1x512.Idx → Elt F .f32) = tile64 (m ((c : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- Operand 5: the third weight matrix, block-diagonal. -/
theorem V_main_v24 (c : Dev nD) : (V m c main_v24 : S512x512.Idx → Elt F .bf16) = blockDiag64x64 (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- Operand 6: the third bias, repeated. -/
theorem V_main_v44 (c : Dev nD) : (V m c main_v44 : S1x512.Idx → Elt F .f32) = tile64 (m ((c : Thread nD τ).loc main_arg6)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- Operand 7: the last weight matrix, block-diagonal. -/
theorem V_main_v32 (c : Dev nD) : (V m c main_v32 : S512x128.Idx → Elt F .bf16) = blockDiag64x16 (m ((c : Thread nD τ).loc main_arg7)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- Operand 8: the last bias, repeated. -/
theorem V_main_v48 (c : Dev nD) : (V m c main_v48 : S1x128.Idx → Elt F .f32) = tile16 (m ((c : Thread nD τ).loc main_arg8)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

end Cert.KernelIdeal.Entry

end
-- ==== Proof.BlockDiag.lean ====
/-
  The one algebraic law of this certificate, on the extended reals.

  A row of length P·K is read as P groups of K entries: position c belongs to group c / K and sits at place c % K
  inside it. A block-diagonal matrix built from one K-column W has, in the column that belongs to group a0, the entry
  δ(c / K, a0) · W (c % K) at row c, where δ is 1 on the diagonal and 0 off it. Contracting the row with that column
  therefore keeps only group a0: every other group's terms are h · (0 · w) = h · 0 = 0, and the diagonal group's are
  h · (1 · w) = h · w. On the extended reals 0 · w = 0 and h · 0 = 0 hold for every w and h, infinite ones included,
  so no finiteness is needed.
-/
import Idealize.ShloMosaic.PureOps.Ideal

namespace Cert.Packed

/-- The contraction of a grouped row with one column of a block-diagonal matrix is the contraction of the
    column's own group with the block: `∑_c H(c/K, c%K) · (E(c/K) · W(c%K)) = ∑_k H(a0, k) · W(k)` when `E` is the
    indicator of group `a0`. -/
theorem sum_blockDiag (P K : ℕ) (H : Fin P → Fin K → EReal) (E : Fin P → EReal) (Wc : Fin K → EReal)
    (a0 : Fin P) (hE : ∀ a, E a = if a = a0 then 1 else 0) :
    ∑ c : Fin (P * K), H c.divNat c.modNat * (E c.divNat * Wc c.modNat) = ∑ k : Fin K, H a0 k * Wc k := by
  rw [← (finProdFinEquiv : Fin P × Fin K ≃ Fin (P * K)).sum_comp, Fintype.sum_prod_type]
  have h1 : ∀ (a : Fin P) (k : Fin K), (finProdFinEquiv (a, k)).divNat = a := fun a k =>
    congrArg Prod.fst (finProdFinEquiv.symm_apply_apply (a, k))
  have h2 : ∀ (a : Fin P) (k : Fin K), (finProdFinEquiv (a, k)).modNat = k := fun a k =>
    congrArg Prod.snd (finProdFinEquiv.symm_apply_apply (a, k))
  simp only [h1, h2]
  rw [Finset.sum_eq_single a0]
  · refine Finset.sum_congr rfl fun k _ => ?_
    rw [hE a0, if_pos rfl, one_mul]
  · intro a _ hne
    refine Finset.sum_eq_zero fun k _ => ?_
    rw [hE a, if_neg hne, zero_mul, mul_zero]
  · intro h
    exact absurd (Finset.mem_univ _) h

end Cert.Packed
-- ==== Proof.Layers.lean ====
/-
  One layer of the network on packed rows.

  A packed row holds eight rows side by side. Multiplying it by a block-diagonal matrix with block W multiplies each of
  the eight rows by W separately: in the sum over the packed row's positions only the group that belongs to the output
  column's group survives (the block-diagonal sum law). The repeated bias adds b[j] to entry j of every group, and the
  maximum with zero acts entry by entry. So each layer of the kernel's body is the corresponding layer of the
  specification applied to each of the eight rows.
-/
import proofs.«168032_j20899310862907_2_alg».proof.Proof.Gen.KernelIdeal
import proofs.«168032_j20899310862907_2_alg».proof.Proof.Spec
import proofs.«168032_j20899310862907_2_alg».proof.Proof.BlockDiag
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layers

open Cert.KernelIdeal Cert.KernelIdeal.Facts₀ Cert.KernelIdeal.Facts Idealize.ShloMosaic Idealize.ShloMosaic.ValueIdx Cert.Mlp

/-! ## Group and place of a position in a packed row -/

/-- The group (which of the eight rows) of position k in a packed row of 8·32. -/
abbrev grp32 (k : Fin 256) : Fin 8 := ⟨k.val / 32, by have := k.isLt; omega⟩
/-- The place inside its group of position k in a packed row of 8·32. -/
abbrev pos32 (k : Fin 256) : Fin 32 := ⟨k.val % 32, Nat.mod_lt _ (by decide)⟩
/-- The group of position k in a packed row of 8·64. -/
abbrev grp64 (k : Fin 512) : Fin 8 := ⟨k.val / 64, by have := k.isLt; omega⟩
/-- The place inside its group of position k in a packed row of 8·64. -/
abbrev pos64 (k : Fin 512) : Fin 64 := ⟨k.val % 64, Nat.mod_lt _ (by decide)⟩
/-- The group of position k in a packed row of 8·16. -/
abbrev grp16 (k : Fin 128) : Fin 8 := ⟨k.val / 16, by have := k.isLt; omega⟩
/-- The place inside its group of position k in a packed row of 8·16. -/
abbrev pos16 (k : Fin 128) : Fin 16 := ⟨k.val % 16, Nat.mod_lt _ (by decide)⟩

/-! ## The 256×512 product: groups of 32 in, groups of 64 out -/

theorem lhs0_256_512 (i : S2048x512.Idx) (p : dot_S2048x256_S256x512_S2048x512_1_0_0_1_n_n.contr.Idx) : (dot_S2048x256_S256x512_S2048x512_1_0_0_1_n_n.lhsIdx i p 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs1_256_512 (i : S2048x512.Idx) (p : dot_S2048x256_S256x512_S2048x512_1_0_0_1_n_n.contr.Idx) : (dot_S2048x256_S256x512_S2048x512_1_0_0_1_n_n.lhsIdx i p 1).val = (p ⟨0, by decide⟩).val :=
  dot_S2048x256_S256x512_S2048x512_1_0_0_1_n_n.lhsIdx_val_of_single rfl i p
theorem rhs0_256_512 (i : S2048x512.Idx) (p : dot_S2048x256_S256x512_S2048x512_1_0_0_1_n_n.contr.Idx) : (dot_S2048x256_S256x512_S2048x512_1_0_0_1_n_n.rhsIdx i p 0).val = (p ⟨0, by decide⟩).val :=
  dot_S2048x256_S256x512_S2048x512_1_0_0_1_n_n.rhsIdx_val_of_single rfl i p
theorem rhs1_256_512 (i : S2048x512.Idx) (p : dot_S2048x256_S256x512_S2048x512_1_0_0_1_n_n.contr.Idx) : (dot_S2048x256_S256x512_S2048x512_1_0_0_1_n_n.rhsIdx i p 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The product into a zero accumulator, at (q, c): the sum over k of the left operand at (q, k) times the right at (k, c). -/
theorem mm_256_512 (lhs : FVec Ideal S2048x256 .bf16) (rhs : FVec Ideal S256x512 .bf16) (q : Fin 2048) (c : Fin 512) :
    matmul dot_S2048x256_S256x512_S2048x512_1_0_0_1_n_n none lhs rhs (constant (F := Ideal) S2048x512 .f32 0x00000000#32) (ix2 q c)
      = ∑ k : Fin 256, lhs (ix2 q k) * rhs (ix2 k c) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 q c) ((contrEquiv1 dot_S2048x256_S256x512_S2048x512_1_0_0_1_n_n 256 rfl rfl).symm k) = ix2 q k := funext fun a => Fin.ext (by
    match a with
    | ⟨0, _⟩ => exact lhs0_256_512 _ _
    | ⟨1, _⟩ => exact (lhs1_256_512 _ _).trans hk)
  have er : dot_S2048x256_S256x512_S2048x512_1_0_0_1_n_n.rhsIdx (ix2 q c) ((contrEquiv1 dot_S2048x256_S256x512_S2048x512_1_0_0_1_n_n 256 rfl rfl).symm k) = ix2 k c := funext fun a => Fin.ext (by
    match a with
    | ⟨0, _⟩ => exact (rhs0_256_512 _ _).trans hk
    | ⟨1, _⟩ => exact rhs1_256_512 _ _)
  rw [el, er]

/-- One hidden layer on packed rows. If the left operand holds, in packed row q, the eight rows `H q a` side by
    side (group a at columns 32a … 32a+31), the right operand is block-diagonal with block W, and the bias row repeats
    `bias` eight times, then the result holds in packed row q the eight rows `hidden W bias (H q a)` side by side. -/
theorem layer_256_512 (lhs : FVec Ideal S2048x256 .bf16) (rhs : FVec Ideal S256x512 .bf16) (b : FVec Ideal S1x512 .f32)
    (W : S32x64.Idx → EReal) (bias : S64.Idx → EReal) (H : Fin 2048 → Fin 8 → Fin 32 → EReal)
    (hl : ∀ (q : Fin 2048) (k : Fin 256), lhs (ix2 q k) = H q (grp32 k) (pos32 k))
    (hr : ∀ (k : Fin 256) (c : Fin 512), rhs (ix2 k c)
        = (if k.val / 32 = c.val / 64 then (1 : EReal) else 0) * W (ix2 (pos32 k) (pos64 c)))
    (hb : ∀ (u : Fin 1) (c : Fin 512), b (ix2 u c) = bias (ix1 (pos64 c)))
    (q : Fin 2048) (c : Fin 512) :
    (truncf .bf16 (maximumf (addf (matmul dot_S2048x256_S256x512_S2048x512_1_0_0_1_n_n none lhs (shapeCast S256x512 rhs shapeCasts_S256x512_S256x512) (constant (F := Ideal) S2048x512 .f32 0x00000000#32))
        (broadcastTo S2048x512 (shapeCast S1x512 b shapeCasts_S1x512_S1x512) broadcasts_S1x512_S2048x512))
      (broadcast S2048x512 (Scalar.ofBits (F := Ideal) .f32 0x00000000#32))) bitsLt_bf16_f32) (ix2 q c)
      = hidden W bias (H q (grp64 c)) (pos64 c) := by
  have hsum : ∑ k : Fin 256, lhs (ix2 q k) * rhs (ix2 k c) = ∑ k : Fin 32, H q (grp64 c) k * W (ix2 k (pos64 c)) := by
    refine Eq.trans (Finset.sum_congr rfl fun k _ => by rw [hl q k, hr k c]) ?_
    exact Cert.Packed.sum_blockDiag 8 32 (fun a k => H q a k) (fun a => if a.val = c.val / 64 then (1 : EReal) else 0)
      (fun k => W (ix2 k (pos64 c))) (grp64 c) (fun a => if_congr ⟨fun h => Fin.ext h, fun h => by rw [h]⟩ rfl rfl)
  rw [truncf_apply, maximumf_apply, addf_apply, shapeCast_self, shapeCast_self, mm_256_512, broadcastTo_1b_ab_apply _ broadcasts_S1x512_S2048x512 q c, hb, hsum, broadcast_apply]
  show max _ (FloatOps.ofBits (F := Ideal) .f32 0x00000000#32) = _
  rw [Ideal.ofBits_def, Ideal.ofBits_zero_f32]
  rfl

/-! ## The 512×512 product: groups of 64 in, groups of 64 out -/

theorem lhs0_512_512 (i : S2048x512.Idx) (p : dot_S2048x512_S512x512_S2048x512_1_0_0_1_n_n.contr.Idx) : (dot_S2048x512_S512x512_S2048x512_1_0_0_1_n_n.lhsIdx i p 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs1_512_512 (i : S2048x512.Idx) (p : dot_S2048x512_S512x512_S2048x512_1_0_0_1_n_n.contr.Idx) : (dot_S2048x512_S512x512_S2048x512_1_0_0_1_n_n.lhsIdx i p 1).val = (p ⟨0, by decide⟩).val :=
  dot_S2048x512_S512x512_S2048x512_1_0_0_1_n_n.lhsIdx_val_of_single rfl i p
theorem rhs0_512_512 (i : S2048x512.Idx) (p : dot_S2048x512_S512x512_S2048x512_1_0_0_1_n_n.contr.Idx) : (dot_S2048x512_S512x512_S2048x512_1_0_0_1_n_n.rhsIdx i p 0).val = (p ⟨0, by decide⟩).val :=
  dot_S2048x512_S512x512_S2048x512_1_0_0_1_n_n.rhsIdx_val_of_single rfl i p
theorem rhs1_512_512 (i : S2048x512.Idx) (p : dot_S2048x512_S512x512_S2048x512_1_0_0_1_n_n.contr.Idx) : (dot_S2048x512_S512x512_S2048x512_1_0_0_1_n_n.rhsIdx i p 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product into a zero accumulator, at (q, c): the sum over k of the left operand at (q, k) times the right at (k, c). -/
theorem mm_512_512 (lhs : FVec Ideal S2048x512 .bf16) (rhs : FVec Ideal S512x512 .bf16) (q : Fin 2048) (c : Fin 512) :
    matmul dot_S2048x512_S512x512_S2048x512_1_0_0_1_n_n none lhs rhs (constant (F := Ideal) S2048x512 .f32 0x00000000#32) (ix2 q c)
      = ∑ k : Fin 512, lhs (ix2 q k) * rhs (ix2 k c) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 q c) ((contrEquiv1 dot_S2048x512_S512x512_S2048x512_1_0_0_1_n_n 512 rfl rfl).symm k) = ix2 q k := funext fun a => Fin.ext (by
    match a with
    | ⟨0, _⟩ => exact lhs0_512_512 _ _
    | ⟨1, _⟩ => exact (lhs1_512_512 _ _).trans hk)
  have er : dot_S2048x512_S512x512_S2048x512_1_0_0_1_n_n.rhsIdx (ix2 q c) ((contrEquiv1 dot_S2048x512_S512x512_S2048x512_1_0_0_1_n_n 512 rfl rfl).symm k) = ix2 k c := funext fun a => Fin.ext (by
    match a with
    | ⟨0, _⟩ => exact (rhs0_512_512 _ _).trans hk
    | ⟨1, _⟩ => exact rhs1_512_512 _ _)
  rw [el, er]

/-- One hidden layer on packed rows. If the left operand holds, in packed row q, the eight rows `H q a` side by
    side (group a at columns 64a … 64a+63), the right operand is block-diagonal with block W, and the bias row repeats
    `bias` eight times, then the result holds in packed row q the eight rows `hidden W bias (H q a)` side by side. -/
theorem layer_512_512 (lhs : FVec Ideal S2048x512 .bf16) (rhs : FVec Ideal S512x512 .bf16) (b : FVec Ideal S1x512 .f32)
    (W : S64x64.Idx → EReal) (bias : S64.Idx → EReal) (H : Fin 2048 → Fin 8 → Fin 64 → EReal)
    (hl : ∀ (q : Fin 2048) (k : Fin 512), lhs (ix2 q k) = H q (grp64 k) (pos64 k))
    (hr : ∀ (k : Fin 512) (c : Fin 512), rhs (ix2 k c)
        = (if k.val / 64 = c.val / 64 then (1 : EReal) else 0) * W (ix2 (pos64 k) (pos64 c)))
    (hb : ∀ (u : Fin 1) (c : Fin 512), b (ix2 u c) = bias (ix1 (pos64 c)))
    (q : Fin 2048) (c : Fin 512) :
    (truncf .bf16 (maximumf (addf (matmul dot_S2048x512_S512x512_S2048x512_1_0_0_1_n_n none lhs (shapeCast S512x512 rhs shapeCasts_S512x512_S512x512) (constant (F := Ideal) S2048x512 .f32 0x00000000#32))
        (broadcastTo S2048x512 (shapeCast S1x512 b shapeCasts_S1x512_S1x512) broadcasts_S1x512_S2048x512))
      (broadcast S2048x512 (Scalar.ofBits (F := Ideal) .f32 0x00000000#32))) bitsLt_bf16_f32) (ix2 q c)
      = hidden W bias (H q (grp64 c)) (pos64 c) := by
  have hsum : ∑ k : Fin 512, lhs (ix2 q k) * rhs (ix2 k c) = ∑ k : Fin 64, H q (grp64 c) k * W (ix2 k (pos64 c)) := by
    refine Eq.trans (Finset.sum_congr rfl fun k _ => by rw [hl q k, hr k c]) ?_
    exact Cert.Packed.sum_blockDiag 8 64 (fun a k => H q a k) (fun a => if a.val = c.val / 64 then (1 : EReal) else 0)
      (fun k => W (ix2 k (pos64 c))) (grp64 c) (fun a => if_congr ⟨fun h => Fin.ext h, fun h => by rw [h]⟩ rfl rfl)
  rw [truncf_apply, maximumf_apply, addf_apply, shapeCast_self, shapeCast_self, mm_512_512, broadcastTo_1b_ab_apply _ broadcasts_S1x512_S2048x512 q c, hb, hsum, broadcast_apply]
  show max _ (FloatOps.ofBits (F := Ideal) .f32 0x00000000#32) = _
  rw [Ideal.ofBits_def, Ideal.ofBits_zero_f32]
  rfl

/-! ## The 512×128 product: groups of 64 in, groups of 16 out -/

theorem lhs0_512_128 (i : S2048x128.Idx) (p : dot_S2048x512_S512x128_S2048x128_1_0_0_1_n_n.contr.Idx) : (dot_S2048x512_S512x128_S2048x128_1_0_0_1_n_n.lhsIdx i p 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhs1_512_128 (i : S2048x128.Idx) (p : dot_S2048x512_S512x128_S2048x128_1_0_0_1_n_n.contr.Idx) : (dot_S2048x512_S512x128_S2048x128_1_0_0_1_n_n.lhsIdx i p 1).val = (p ⟨0, by decide⟩).val :=
  dot_S2048x512_S512x128_S2048x128_1_0_0_1_n_n.lhsIdx_val_of_single rfl i p
theorem rhs0_512_128 (i : S2048x128.Idx) (p : dot_S2048x512_S512x128_S2048x128_1_0_0_1_n_n.contr.Idx) : (dot_S2048x512_S512x128_S2048x128_1_0_0_1_n_n.rhsIdx i p 0).val = (p ⟨0, by decide⟩).val :=
  dot_S2048x512_S512x128_S2048x128_1_0_0_1_n_n.rhsIdx_val_of_single rfl i p
theorem rhs1_512_128 (i : S2048x128.Idx) (p : dot_S2048x512_S512x128_S2048x128_1_0_0_1_n_n.contr.Idx) : (dot_S2048x512_S512x128_S2048x128_1_0_0_1_n_n.rhsIdx i p 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The product into a zero accumulator, at (q, c): the sum over k of the left operand at (q, k) times the right at (k, c). -/
theorem mm_512_128 (lhs : FVec Ideal S2048x512 .bf16) (rhs : FVec Ideal S512x128 .bf16) (q : Fin 2048) (c : Fin 128) :
    matmul dot_S2048x512_S512x128_S2048x128_1_0_0_1_n_n none lhs rhs (constant (F := Ideal) S2048x128 .f32 0x00000000#32) (ix2 q c)
      = ∑ k : Fin 512, lhs (ix2 q k) * rhs (ix2 k c) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 q c) ((contrEquiv1 dot_S2048x512_S512x128_S2048x128_1_0_0_1_n_n 512 rfl rfl).symm k) = ix2 q k := funext fun a => Fin.ext (by
    match a with
    | ⟨0, _⟩ => exact lhs0_512_128 _ _
    | ⟨1, _⟩ => exact (lhs1_512_128 _ _).trans hk)
  have er : dot_S2048x512_S512x128_S2048x128_1_0_0_1_n_n.rhsIdx (ix2 q c) ((contrEquiv1 dot_S2048x512_S512x128_S2048x128_1_0_0_1_n_n 512 rfl rfl).symm k) = ix2 k c := funext fun a => Fin.ext (by
    match a with
    | ⟨0, _⟩ => exact (rhs0_512_128 _ _).trans hk
    | ⟨1, _⟩ => exact rhs1_512_128 _ _)
  rw [el, er]

/-- One dense layer on packed rows. If the left operand holds, in packed row q, the eight rows `H q a` side by
    side (group a at columns 64a … 64a+63), the right operand is block-diagonal with block W, and the bias row repeats
    `bias` eight times, then the result holds in packed row q the eight rows `dense W bias (H q a)` side by side. -/
theorem layer_512_128 (lhs : FVec Ideal S2048x512 .bf16) (rhs : FVec Ideal S512x128 .bf16) (b : FVec Ideal S1x128 .f32)
    (W : S64x16.Idx → EReal) (bias : S16.Idx → EReal) (H : Fin 2048 → Fin 8 → Fin 64 → EReal)
    (hl : ∀ (q : Fin 2048) (k : Fin 512), lhs (ix2 q k) = H q (grp64 k) (pos64 k))
    (hr : ∀ (k : Fin 512) (c : Fin 128), rhs (ix2 k c)
        = (if k.val / 64 = c.val / 16 then (1 : EReal) else 0) * W (ix2 (pos64 k) (pos16 c)))
    (hb : ∀ (u : Fin 1) (c : Fin 128), b (ix2 u c) = bias (ix1 (pos16 c)))
    (q : Fin 2048) (c : Fin 128) :
    (addf (matmul dot_S2048x512_S512x128_S2048x128_1_0_0_1_n_n none lhs (shapeCast S512x128 rhs shapeCasts_S512x128_S512x128) (constant (F := Ideal) S2048x128 .f32 0x00000000#32))
        (broadcastTo S2048x128 (shapeCast S1x128 b shapeCasts_S1x128_S1x128) broadcasts_S1x128_S2048x128)) (ix2 q c)
      = dense W bias (H q (grp16 c)) (pos16 c) := by
  have hsum : ∑ k : Fin 512, lhs (ix2 q k) * rhs (ix2 k c) = ∑ k : Fin 64, H q (grp16 c) k * W (ix2 k (pos16 c)) := by
    refine Eq.trans (Finset.sum_congr rfl fun k _ => by rw [hl q k, hr k c]) ?_
    exact Cert.Packed.sum_blockDiag 8 64 (fun a k => H q a k) (fun a => if a.val = c.val / 16 then (1 : EReal) else 0)
      (fun k => W (ix2 k (pos16 c))) (grp16 c) (fun a => if_congr ⟨fun h => Fin.ext h, fun h => by rw [h]⟩ rfl rfl)
  rw [addf_apply, shapeCast_self, shapeCast_self, mm_512_128, broadcastTo_1b_ab_apply _ broadcasts_S1x128_S2048x128 q c, hb, hsum]
  rfl

end Cert.KernelIdeal.Layers

end
-- ==== Proof.Body.lean ====
/-
  What the kernel's body computes on one block, at an index.

  The body is four layers on 2048 packed rows. By the layer lemma each layer acts on the eight rows of a packed row
  separately, so entry (q, c) of the block it stores is the network applied to row c / 16 of packed row q, at output
  entry c % 16.
-/
import proofs.«168032_j20899310862907_2_alg».proof.Proof.Gen.KernelIdeal.Skeleton
import proofs.«168032_j20899310862907_2_alg».proof.Proof.Layers

noncomputable section

namespace Cert.KernelIdeal.Body

open Cert.KernelIdeal Cert.KernelIdeal.Gen Cert.KernelIdeal.Layers
  Idealize.ShloMosaic Idealize.ShloMosaic.ValueIdx Cert.Mlp

/-- Row a (of eight) of packed row q of a block of packed inputs. -/
def rows (x0 : FVec Ideal S2048x256 .f32) (q : Fin 2048) (a : Fin 8) (k : Fin 32) : EReal :=
  x0 (ix2 q (⟨32 * a.val + k.val, by have := a.isLt; have := k.isLt; omega⟩ : Fin 256))

/-- The body's stored value at (q, c): the network on row c / 16 of packed row q, at entry c % 16 — given that the
    weight blocks are block-diagonal and the bias rows repeated. -/
theorem payload_apply (x0 : FVec Ideal S2048x256 .f32) (x1 : FVec Ideal S256x512 .bf16) (x2 : FVec Ideal S1x512 .f32)
    (x3 : FVec Ideal S512x512 .bf16) (x4 : FVec Ideal S1x512 .f32) (x5 : FVec Ideal S512x512 .bf16) (x6 : FVec Ideal S1x512 .f32)
    (x7 : FVec Ideal S512x128 .bf16) (x8 : FVec Ideal S1x128 .f32)
    (Win : S32x64.Idx → EReal) (bin : S64.Idx → EReal) (Wh0 : S64x64.Idx → EReal) (bh0 : S64.Idx → EReal)
    (Wh1 : S64x64.Idx → EReal) (bh1 : S64.Idx → EReal) (Wout : S64x16.Idx → EReal) (bout : S16.Idx → EReal)
    (h1 : ∀ (k : Fin 256) (c : Fin 512), x1 (ix2 k c) = (if k.val / 32 = c.val / 64 then (1 : EReal) else 0) * Win (ix2 (pos32 k) (pos64 c)))
    (hb1 : ∀ (u : Fin 1) (c : Fin 512), x2 (ix2 u c) = bin (ix1 (pos64 c)))
    (h2 : ∀ (k : Fin 512) (c : Fin 512), x3 (ix2 k c) = (if k.val / 64 = c.val / 64 then (1 : EReal) else 0) * Wh0 (ix2 (pos64 k) (pos64 c)))
    (hb2 : ∀ (u : Fin 1) (c : Fin 512), x4 (ix2 u c) = bh0 (ix1 (pos64 c)))
    (h3 : ∀ (k : Fin 512) (c : Fin 512), x5 (ix2 k c) = (if k.val / 64 = c.val / 64 then (1 : EReal) else 0) * Wh1 (ix2 (pos64 k) (pos64 c)))
    (hb3 : ∀ (u : Fin 1) (c : Fin 512), x6 (ix2 u c) = bh1 (ix1 (pos64 c)))
    (h4 : ∀ (k : Fin 512) (c : Fin 128), x7 (ix2 k c) = (if k.val / 64 = c.val / 16 then (1 : EReal) else 0) * Wout (ix2 (pos64 k) (pos16 c)))
    (hb4 : ∀ (u : Fin 1) (c : Fin 128), x8 (ix2 u c) = bout (ix1 (pos16 c)))
    (q : Fin 2048) (c : Fin 128) :
    k0_pay1 (F := Ideal) (k0_pay2 (F := Ideal) x0 x1 x2 x3 x4 x5 x6 x7) x8 (ix2 q c)
      = mlp Win bin Wh0 bh0 Wh1 bh1 Wout bout (rows x0 q (grp16 c)) (pos16 c) := by
  have hl0 : ∀ (q : Fin 2048) (k : Fin 256),
      (truncf .bf16 (shapeCast S2048x256 x0 shapeCasts_S2048x256_S2048x256) bitsLt_bf16_f32 : FVec Ideal S2048x256 .bf16) (ix2 q k)
        = rows x0 q (grp32 k) (pos32 k) := fun q k => by
    rw [truncf_apply, shapeCast_self]
    unfold rows
    exact congrArg (fun z => x0 (ix2 q z)) (Fin.ext (by show k.val = 32 * (k.val / 32) + k.val % 32; omega))
  unfold k0_pay1 k0_pay2
  exact layer_512_128 _ x7 x8 Wout bout (fun q a => hidden Wh1 bh1 (hidden Wh0 bh0 (hidden Win bin (rows x0 q a))))
    (fun q k => layer_512_512 _ x5 x6 Wh1 bh1 (fun q a => hidden Wh0 bh0 (hidden Win bin (rows x0 q a)))
      (fun q k => layer_512_512 _ x3 x4 Wh0 bh0 (fun q a => hidden Win bin (rows x0 q a))
        (fun q k => layer_256_512 _ x1 x2 Win bin (rows x0) hl0 h1 hb1 q k) h2 hb2 q k) h3 hb3 q k) h4 hb4 q c

end Cert.KernelIdeal.Body

end
-- ==== Proof.Blocks.lean ====
/-
  From the blocks the kernel writes back to the whole packed result.

  Point t of the grid reads packed rows 2048t … 2048t+2047 of x (and the whole of every weight and bias array) and
  writes back packed rows 2048t … 2048t+2047 of the result. By the body's value at an index, what it writes is the
  restriction to those rows of one function of the arguments: packed row r, column c holds the network applied to row
  8r + c / 16 of x, at entry c % 16. The 128 blocks tile the 262144 packed rows (row r is in block r / 2048), so the
  result array ends holding that function.
-/
import proofs.«168032_j20899310862907_2_alg».proof.Proof.Gen.KernelIdeal.Frame
import proofs.«168032_j20899310862907_2_alg».proof.Proof.Entry
import proofs.«168032_j20899310862907_2_alg».proof.Proof.Body
import Idealize.ShloMosaic.Lib.Pipeline.Value

set_option maxRecDepth 16384

noncomputable section

namespace Cert.KernelIdeal.Blocks

open Cert.KernelIdeal Cert.KernelIdeal.Gen Cert.KernelIdeal.Packing Cert.KernelIdeal.Entry
  Cert.KernelIdeal.Layers Cert.KernelIdeal.Body Idealize.ShloMosaic Idealize.ShloMosaic.TcCoe Idealize.ShloMosaic.ValueIdx Idealize.SL.Sem Cert.Mlp
open Idealize.ShloMosaic.Pipeline (Dat)

/-- The packed result: packed row r, column c holds the network applied to row 8r + c / 16 of x, at entry c % 16. -/
def Gp (x : S2097152x32.Idx → EReal) (Win : S32x64.Idx → EReal) (bin : S64.Idx → EReal) (Wh0 : S64x64.Idx → EReal) (bh0 : S64.Idx → EReal)
    (Wh1 : S64x64.Idx → EReal) (bh1 : S64.Idx → EReal) (Wout : S64x16.Idx → EReal) (bout : S16.Idx → EReal) : S262144x128.Idx → EReal :=
  fun i => mlp Win bin Wh0 bh0 Wh1 bh1 Wout bout
    (fun k => x (ix2 (⟨8 * (i 0).val + (i 1).val / 16, by have h0 : (i 0).val < 262144 := (i 0).isLt; have h1 : (i 1).val < 128 := (i 1).isLt; omega⟩ : Fin 2097152) k)) (pos16 (i 1))

/-- The packed result at packed row r, column cc, with the row of x read through its packed form. -/
theorem Gp_at (x : S2097152x32.Idx → EReal) (Win : S32x64.Idx → EReal) (bin : S64.Idx → EReal) (Wh0 : S64x64.Idx → EReal) (bh0 : S64.Idx → EReal)
    (Wh1 : S64x64.Idx → EReal) (bh1 : S64.Idx → EReal) (Wout : S64x16.Idx → EReal) (bout : S16.Idx → EReal)
    (r : Fin 262144) (cc : Fin 128) :
    Gp x Win bin Wh0 bh0 Wh1 bh1 Wout bout (ix2 r cc)
      = mlp Win bin Wh0 bh0 Wh1 bh1 Wout bout
          (fun k => packRows x (ix2 r (⟨32 * (cc.val / 16) + k.val, by have := cc.isLt; have := k.isLt; omega⟩ : Fin 256))) (pos16 cc) := by
  unfold Gp
  refine congrArg (fun h => mlp Win bin Wh0 bh0 Wh1 bh1 Wout bout h (pos16 cc)) (funext fun k => ?_)
  rw [packRows_apply]
  have hk := k.isLt
  have hc := cc.isLt
  refine congrArg x ?_
  refine funext fun a => Fin.ext ?_
  match a with
  | ⟨0, _⟩ => show 8 * r.val + cc.val / 16 = 8 * r.val + (32 * (cc.val / 16) + k.val) / 32; omega
  | ⟨1, _⟩ => show k.val = (32 * (cc.val / 16) + k.val) % 32; omega

variable (m : (ℓ : Loc nD τ sig) → Buf (Elt Ideal) ℓ)

theorem hz : (![0, 0] : Fin 2 → Nat) = fun _ => 0 := funext fun a => by fin_cases a <;> rfl

/-- The printed index maps, decided over the grid: the input rows and the output rows move with the point, every
    weight and bias window stays at its one block. -/
theorem idx_facts : ∀ t : Fin cfg0.N, win0_0.index t (0 : Fin 2) = t.val
    ∧ win0_0.index t (1 : Fin 2) = 0
    ∧ win0_9.index t (0 : Fin 2) = t.val
    ∧ win0_9.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

theorem point_lt (t : Fin cfg0.N) : t.val < 128 := lt_of_lt_of_eq t.isLt N_0

/-- Window 1's block is its whole array at every point. -/
theorem iblk1 (c : Dev nD) (t : Fin cfg0.N) : (iblk m c 1 t : S256x512.Idx → EReal) = V m c main_v8 := by
  funext y
  show V m c main_v8 (((cfg0.win 1).blk t).view.emb y) = V m c main_v8 y
  obtain ⟨e00, e01, e90, e91, e10, e11, e20, e21, e30, e31, e40, e41, e50, e51, e60, e61, e70, e71, e80, e81⟩ := idx_facts t
  refine congrArg (V m c main_v8) (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- Window 2's block is its whole array at every point. -/
theorem iblk2 (c : Dev nD) (t : Fin cfg0.N) : (iblk m c 2 t : S1x512.Idx → EReal) = V m c main_v36 := by
  funext y
  show V m c main_v36 (((cfg0.win 2).blk t).view.emb y) = V m c main_v36 y
  obtain ⟨e00, e01, e90, e91, e10, e11, e20, e21, e30, e31, e40, e41, e50, e51, e60, e61, e70, e71, e80, e81⟩ := idx_facts t
  refine congrArg (V m c main_v36) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- Window 3's block is its whole array at every point. -/
theorem iblk3 (c : Dev nD) (t : Fin cfg0.N) : (iblk m c 3 t : S512x512.Idx → EReal) = V m c main_v16 := by
  funext y
  show V m c main_v16 (((cfg0.win 3).blk t).view.emb y) = V m c main_v16 y
  obtain ⟨e00, e01, e90, e91, e10, e11, e20, e21, e30, e31, e40, e41, e50, e51, e60, e61, e70, e71, e80, e81⟩ := idx_facts t
  refine congrArg (V m c main_v16) (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- Window 4's block is its whole array at every point. -/
theorem iblk4 (c : Dev nD) (t : Fin cfg0.N) : (iblk m c 4 t : S1x512.Idx → EReal) = V m c main_v40 := by
  funext y
  show V m c main_v40 (((cfg0.win 4).blk t).view.emb y) = V m c main_v40 y
  obtain ⟨e00, e01, e90, e91, e10, e11, e20, e21, e30, e31, e40, e41, e50, e51, e60, e61, e70, e71, e80, e81⟩ := idx_facts t
  refine congrArg (V m c main_v40) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- Window 5's block is its whole array at every point. -/
theorem iblk5 (c : Dev nD) (t : Fin cfg0.N) : (iblk m c 5 t : S512x512.Idx → EReal) = V m c main_v24 := by
  funext y
  show V m c main_v24 (((cfg0.win 5).blk t).view.emb y) = V m c main_v24 y
  obtain ⟨e00, e01, e90, e91, e10, e11, e20, e21, e30, e31, e40, e41, e50, e51, e60, e61, e70, e71, e80, e81⟩ := idx_facts t
  refine congrArg (V m c main_v24) (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

/-- Window 6's block is its whole array at every point. -/
theorem iblk6 (c : Dev nD) (t : Fin cfg0.N) : (iblk m c 6 t : S1x512.Idx → EReal) = V m c main_v44 := by
  funext y
  show V m c main_v44 (((cfg0.win 6).blk t).view.emb y) = V m c main_v44 y
  obtain ⟨e00, e01, e90, e91, e10, e11, e20, e21, e30, e31, e40, e41, e50, e51, e60, e61, e70, e71, e80, e81⟩ := idx_facts t
  refine congrArg (V m c main_v44) (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- Window 7's block is its whole array at every point. -/
theorem iblk7 (c : Dev nD) (t : Fin cfg0.N) : (iblk m c 7 t : S512x128.Idx → EReal) = V m c main_v32 := by
  funext y
  show V m c main_v32 (((cfg0.win 7).blk t).view.emb y) = V m c main_v32 y
  obtain ⟨e00, e01, e90, e91, e10, e11, e20, e21, e30, e31, e40, e41, e50, e51, e60, e61, e70, e71, e80, e81⟩ := idx_facts t
  refine congrArg (V m c main_v32) (funext fun a => Fin.ext ?_)
  match a with
  | ⟨0, _⟩ => show win0_7.index t (0 : Fin 2) * 512 + 1 * (y 0).val = (y 0).val; omega
  | ⟨1, _⟩ => show win0_7.index t (1 : Fin 2) * 128 + 1 * (y 1).val = (y 1).val; omega

/-- Window 8's block is its whole array at every point. -/
theorem iblk8 (c : Dev nD) (t : Fin cfg0.N) : (iblk m c 8 t : S1x128.Idx → EReal) = V m c main_v48 := by
  funext y
  show V m c main_v48 (((cfg0.win 8).blk t).view.emb y) = V m c main_v48 y
  obtain ⟨e00, e01, e90, e91, e10, e11, e20, e21, e30, e31, e40, e41, e50, e51, e60, e61, e70, e71, e80, e81⟩ := idx_facts t
  refine congrArg (V m c main_v48) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 0's block at point t is packed rows 2048t … 2048t+2047 of the packed x. -/
theorem iblk0_apply (c : Dev nD) (t : Fin cfg0.N) (q : Fin 2048) (k : Fin 256) :
    (iblk m c 0 t : S2048x256.Idx → EReal) (ix2 q k)
      = V m c main_v0 (ix2 (⟨2048 * t.val + q.val, by have := point_lt t; have := q.isLt; omega⟩ : Fin 262144) k) := by
  show V m c main_v0 (((cfg0.win 0).blk t).view.emb (ix2 q k)) = _
  obtain ⟨e00, e01, e90, e91, e10, e11, e20, e21, e30, e31, e40, e41, e50, e51, e60, e61, e70, e71, e80, e81⟩ := idx_facts t
  refine congrArg (V m c main_v0) (funext fun a => Fin.ext ?_)
  match a with
  | ⟨0, _⟩ => show win0_0.index t (0 : Fin 2) * 2048 + 1 * q.val = 2048 * t.val + q.val; omega
  | ⟨1, _⟩ => show win0_0.index t (1 : Fin 2) * 256 + 1 * k.val = k.val; omega

/-- What point t writes back is block t of the packed result of the arguments. -/
theorem flushed_eq (c : Dev nD) (t : Fin cfg0.N) :
    (dats m 0 c).flushed 9 t = ((cfg0.win 9).blk t).view.read (Elt Ideal) (Gp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 9).cut (grid0.coords t) ((dats m 0 c).after 9 t) = _
  rw [after0_9]
  unfold out0_9
  rw [View.canon_unit_zero hz]
  simp only [View.ld_unit_zero (S := S2048x256) hz, View.ld_unit_zero (S := S256x512) hz, View.ld_unit_zero (S := S1x512) hz,
    View.ld_unit_zero (S := S512x512) hz, View.ld_unit_zero (S := S512x128) hz, View.ld_unit_zero (S := S1x128) hz]
  funext y
  obtain ⟨q, cc, rfl⟩ : ∃ (q : Fin 2048) (cc : Fin 128), y = ix2 q cc := ⟨y 0, y 1, eq_ix2 y⟩
  obtain ⟨e00, e01, e90, e91, e10, e11, e20, e21, e30, e31, e40, e41, e50, e51, e60, e61, e70, e71, e80, e81⟩ := idx_facts t
  have ht := point_lt t
  have hq := q.isLt
  have hemb : ((cfg0.win 9).blk t).view.emb (ix2 q cc)
      = ix2 (⟨2048 * t.val + q.val, by omega⟩ : Fin 262144) cc := by
    refine funext fun a => Fin.ext ?_
    match a with
    | ⟨0, _⟩ => show win0_9.index t (0 : Fin 2) * 2048 + 1 * q.val = 2048 * t.val + q.val; omega
    | ⟨1, _⟩ => show win0_9.index t (1 : Fin 2) * 128 + 1 * cc.val = cc.val; omega
  show k0_pay1 (F := Ideal) (k0_pay2 (F := Ideal) (iblk m c 0 t) (iblk m c 1 t) (iblk m c 2 t) (iblk m c 3 t) (iblk m c 4 t) (iblk m c 5 t) (iblk m c 6 t) (iblk m c 7 t)) (iblk m c 8 t) (ix2 q cc)
      = Gp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix2 q cc))
  rw [hemb, Gp_at, iblk1 m c t, iblk2 m c t, iblk3 m c t, iblk4 m c t, iblk5 m c t, iblk6 m c t, iblk7 m c t, iblk8 m c t,
    V_main_v8 m c, V_main_v36 m c, V_main_v16 m c, V_main_v40 m c, V_main_v24 m c, V_main_v44 m c, V_main_v32 m c, V_main_v48 m c]
  refine (payload_apply (iblk m c 0 t) (blockDiag32x64 (m ((c : Thread nD τ).loc main_arg1))) (tile64 (m ((c : Thread nD τ).loc main_arg2))) (blockDiag64x64 (m ((c : Thread nD τ).loc main_arg3))) (tile64 (m ((c : Thread nD τ).loc main_arg4)))
    (blockDiag64x64 (m ((c : Thread nD τ).loc main_arg5))) (tile64 (m ((c : Thread nD τ).loc main_arg6))) (blockDiag64x16 (m ((c : Thread nD τ).loc main_arg7))) (tile16 (m ((c : Thread nD τ).loc main_arg8)))
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (fun k c' => blockDiag32x64_apply _ k c') (fun u c' => tile64_apply _ u c')
    (fun k c' => blockDiag64x64_apply _ k c') (fun u c' => tile64_apply _ u c')
    (fun k c' => blockDiag64x64_apply _ k c') (fun u c' => tile64_apply _ u c')
    (fun k c' => blockDiag64x16_apply _ k c') (fun u c' => tile16_apply _ u c') q cc).trans ?_
  refine congrArg (fun h => mlp (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) h (pos16 cc)) (funext fun k => ?_)
  unfold rows
  rw [iblk0_apply m c t, V_main_v0 m c]

/-- An index of the packed result is in point t's block iff each coordinate is in the block's range on its axis. -/
theorem mem_blk (t : Fin cfg0.N) (i : S262144x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v49).slice (win0_9.rect t)).set ↔ _
  rw [View.set_slice_whole, Rect.mem_set_unit]
  exact Iff.rfl

/-- Every packed row is in some point's block: row r in block r / 2048. -/
theorem cover (i : S262144x128.Idx) :
    ∃ t : Fin cfg0.N, (cfg0.win 9).flush t = true ∧ i ∈ ((cfg0.win 9).blk t).view.set := by
  have hi0 : (i 0).val < 262144 := (i 0).isLt
  have hi1 : (i 1).val < 128 := (i 1).isLt
  let t : Fin cfg0.N := ⟨(i 0).val / 2048, lt_of_lt_of_eq (by omega) N_0.symm⟩
  obtain ⟨e00, e01, e90, e91, e10, e11, e20, e21, e30, e31, e40, e41, e50, e51, e60, e61, e70, e71, e80, e81⟩ := idx_facts t
  have e90' : win0_9.index t (0 : Fin 2) = (i 0).val / 2048 := e90
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 128 ≤ (i 1).val ∧ (i 1).val < win0_9.index t (1 : Fin 2) * 128 + 128; omega

/-- The packed result array after the region: the blocks tile it, so it holds the packed result everywhere. -/
theorem final (c : Dev nD) : (dats m 0 c).arrAt 9 cfg0.N = Gp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 _ (fun t _ => flushed_eq m c t) cover

end Cert.KernelIdeal.Blocks

end
-- ==== Proof.KernelValue.lean ====
/-
  The kernel's result is the specification of its arguments.

  After the region the program unpacks: the packed result, 262144 rows of 128, is read as 2097152 rows of 16 (row n
  is columns 16 (n % 8) … 16 (n % 8) + 15 of packed row n / 8). The packed result holds, at packed row r and column c,
  the network applied to row 8r + c / 16 of x at entry c % 16; at r = n / 8 and c = 16 (n % 8) + j that is row n of x
  at entry j. So the unpacked array is the specification.
-/
import proofs.«168032_j20899310862907_2_alg».proof.Proof.Blocks
import Idealize.ShloMosaic.Lib.StableHlo.Run

set_option maxRecDepth 16384

noncomputable section

namespace Cert.KernelIdeal.KValue

open Cert.KernelIdeal Cert.KernelIdeal.Gen Cert.KernelIdeal.Packing Cert.KernelIdeal.Layers Cert.KernelIdeal.Blocks
  Idealize.ShloMosaic Idealize.ShloMosaic.TcCoe Idealize.ShloMosaic.ValueIdx Idealize.SL.Sem Idealize.ShloMosaic.StableHlo Cert.Mlp

/-- Unpacking the packed result gives the specification: row n, entry j. -/
theorem unpack_Gp (x : S2097152x32.Idx → EReal) (Win : S32x64.Idx → EReal) (bin : S64.Idx → EReal) (Wh0 : S64x64.Idx → EReal) (bh0 : S64.Idx → EReal)
    (Wh1 : S64x64.Idx → EReal) (bh1 : S64.Idx → EReal) (Wout : S64x16.Idx → EReal) (bout : S16.Idx → EReal) :
    unpackRows (Gp x Win bin Wh0 bh0 Wh1 bh1 Wout bout) = G x Win bin Wh0 bh0 Wh1 bh1 Wout bout := by
  funext i
  obtain ⟨n, j, rfl⟩ : ∃ (n : Fin 2097152) (j : Fin 16), i = ix2 n j := ⟨i 0, i 1, eq_ix2 i⟩
  have hn := n.isLt
  have hj := j.isLt
  rw [unpackRows_apply]
  unfold Gp G
  refine congr (congrArg (mlp Win bin Wh0 bh0 Wh1 bh1 Wout bout) (funext fun k => ?_)) (Fin.ext ?_)
  · refine congrArg (fun z => x (ix2 z k)) (Fin.ext ?_)
    show 8 * (n.val / 8) + (16 * (n.val % 8) + j.val) / 16 = n.val
    omega
  · show (16 * (n.val % 8) + j.val) % 16 = j.val
    omega

variable (m : (ℓ : Loc nD τ sig) → Buf (Elt Ideal) ℓ) (ρ : Dev nD → PrngReg)

/-- The result buffer after the one operation that follows the region. -/
theorem tail_v50 (c : Dev nD) :
    Pipeline.afterTail₀ cfgs (dats m) 0 (V0 m) [hostOps1] c main_v50
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v50) = _
  after_results
  rw [(Pipeline.withArrays_arr spec0 launch0.win.arr_inj c _ _ 9).trans (final m c)]
  exact unpack_Gp _ _ _ _ _ _ _ _ _

/-- The kernel's run: every weakly fair execution terminates with the result at the specification of the arguments and
    the arguments unchanged. -/
theorem run : θ_run defs (onTc (τ := τ) (main (F := Ideal))) ⟨m, fun _ => 0, ρ⟩ (fun r => ∀ c : Dev nD,
      r.2.mem ((c.tc : Thread nD τ).loc main_v50) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).2 main_v50 (Pipeline.mem_restRefs_of main_v50 (by decide) (by decide))).trans (tail_v50 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KValue

end
-- ==== Proof.lean ====
/-
  The kernel and the reference compute the same function on the extended reals.

  The reference applies a four-layer network (three dense layers clamped at zero, one plain dense layer) to each row of
  x. The kernel lays eight consecutive rows side by side in one packed row, multiplies by block-diagonal copies of the
  weight matrices, adds eightfold-repeated biases, and unpacks. Multiplying a packed row by a block-diagonal matrix
  multiplies each of its eight rows by the block separately, because every off-diagonal term is a product with an
  exact zero; so each packed entry is the reference's entry for the row and column it stands for, and unpacking puts
  it back there. A change of float format is the identity on the extended reals, and nothing in the argument needs the
  inputs to be finite.

  The three frames are the generated ones (the reference's is its generated run with the result dropped); the
  idealization rewrote nothing, so its conjunct is trivial.
-/
import proofs.«168032_j20899310862907_2_alg».proof.Defs
import proofs.«168032_j20899310862907_2_alg».proof.Proof.Gen.Kernel
import proofs.«168032_j20899310862907_2_alg».proof.Proof.Gen.Kernel.Frame
import proofs.«168032_j20899310862907_2_alg».proof.Proof.Gen.KernelIdeal
import proofs.«168032_j20899310862907_2_alg».proof.Proof.Gen.KernelIdeal.Frame
import proofs.«168032_j20899310862907_2_alg».proof.Proof.Gen.ReferenceIdeal
import proofs.«168032_j20899310862907_2_alg».proof.Proof.Gen.Pre_finite_inputs
import proofs.«168032_j20899310862907_2_alg».proof.Proof.Gen.ReferenceIdeal.Run
import proofs.«168032_j20899310862907_2_alg».proof.Proof.Gen.ReferenceIdeal.Read
import proofs.«168032_j20899310862907_2_alg».proof.Proof.RefValue
import proofs.«168032_j20899310862907_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the result at the specification of those
    arguments: the kernel by its packed computation unpacked, the reference stage by stage. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v18_eq, Cert.ReferenceIdeal.RefValue.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
